-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1200000 : Shape := ⟨2, ![2, 1200000]⟩
abbrev S50000 : Shape := ⟨1, ![50000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000 : S_.BroadcastsInDim S50000 (![] : Fin 0 → Fin S50000.rank)
  reducesTo_S50000_S_d0 : S50000.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S32x32 .f32) (main_arg6 : FVec F S32 .f32) (main_arg7 : FVec F S32x1 .f32) (main_arg8 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x1 .f32 := Host.absf main_arg7
  let main_cst_10 : FVec F S_ .f32 := constant S_ .f32 0x7F800000#32
  let main_v30 : FVec F S32x1 .f32 := broadcastInDim S32x1 ![] bcast_S_S32x1 main_cst_10
  let main_v31 : IVec S32x1 1 := cmpf .olt main_v29 main_v30
  let main_c_11 : IVec S_ 1 := constantI S_ 1 1#1
  let main_v32 : IVec S_ 1 := (fun x v => Host.reduce IntOp.andi x v reducesTo_S32x1_S_d0_1 h_S_) main_v31 main_c_11
  let main_v33 : IVec S_ 1 := andi main_v28 main_v32
  fn_part2 (F := F) main_arg8 main_v33

def fn {F : FTy → Type} [FloatOps F] (main_arg0 : FVec F S50000x64 .f32) (main_arg1 : IVec S2x1200000 32) (main_arg2 : FVec F S50000 .f32) (main_arg3 : FVec F S128x32 .f32) (main_arg4 : FVec F S32 .f32) (main_arg5 : FVec F S32x32 .f32) (main_arg6 : FVec F S32 .f32) (main_arg7 : FVec F S32x1 .f32) (main_arg8 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000 .f32 := Host.absf main_arg2
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S128x32 .f32 := Host.absf main_arg3
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_v13 main_v16
-- ==== Kernel.lean ====
abbrev S50000x64 : Shape := ⟨2, ![50000, 64]⟩
abbrev S2x1200000 : Shape := ⟨2, ![2, 1200000]⟩
abbrev S50000 : Shape := ⟨1, ![50000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S64x32 : Shape := ⟨2, ![64, 32]⟩
abbrev S1x32 : Shape := ⟨2, ![1, 32]⟩
abbrev S1x1 : Shape := ⟨2, ![1, 1]⟩
abbrev S6000x64 : Shape := ⟨2, ![6000, 64]⟩
abbrev S6000x1 : Shape := ⟨2, ![6000, 1]⟩
abbrev S6000x32 : Shape := ⟨2, ![6000, 32]⟩

abbrev nBuf : Space → Nat
  | .hbm => 53
  | .vmem => 15
  | .smem => 0
  | _ => 0

abbrev bufTy : (tb : Table) → Fin (tcTables nBuf tb) → BufTy
  | .hbm, ⟨0, _⟩ => ⟨S50000x64, .f32⟩
  | .hbm, ⟨1, _⟩ => ⟨S2x1200000, .i32⟩
  | .hbm, ⟨2, _⟩ => ⟨S50000, .f32⟩
  | .hbm, ⟨3, _⟩ => ⟨S128x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S1x1200000, .i32⟩
  | .hbm, ⟨10, _⟩ => ⟨S1200000, .i32⟩
  | .hbm, ⟨11, _⟩ => ⟨S1x1200000, .i32⟩
  | .hbm, ⟨12, _⟩ => ⟨S1200000, .i32⟩
  | .hbm, ⟨13, _⟩ => ⟨S50000x64, .bf16⟩
  | .hbm, ⟨14, _⟩ => ⟨S_, .i32⟩
  | .hbm, ⟨15, _⟩ => ⟨S1200000, .i32⟩
  | .hbm, ⟨16, _⟩ => ⟨S1200000, .i1⟩
  | .hbm, ⟨17, _⟩ => ⟨S_, .i32⟩
  | .hbm, ⟨18, _⟩ => ⟨S1200000, .i32⟩
  | .hbm, ⟨19, _⟩ => ⟨S1200000, .i32⟩
  | .hbm, ⟨20, _⟩ => ⟨S1200000, .i32⟩
  | .hbm, ⟨21, _⟩ => ⟨S1200000x1, .i32⟩
  | .hbm, ⟨22, _⟩ => ⟨S1200000x64, .bf16⟩
  | .hbm, ⟨23, _⟩ => ⟨S_, .i32⟩
  | .hbm, ⟨24, _⟩ => ⟨S1200000, .i32⟩
  | .hbm, ⟨25, _⟩ => ⟨S1200000, .i1⟩
  | .hbm, ⟨26, _⟩ => ⟨S_, .i32⟩
  | .hbm, ⟨27, _⟩ => ⟨S1200000, .i32⟩
  | .hbm, ⟨28, _⟩ => ⟨S1200000, .i32⟩
  | .hbm, ⟨29, _⟩ => ⟨S1200000, .i32⟩
  | .hbm, ⟨30, _⟩ => ⟨S1200000x1, .i32⟩
  | .hbm, ⟨31, _⟩ => ⟨S1200000x64, .bf16⟩
  | .hbm, ⟨32, _⟩ => ⟨S_, .i32⟩
  | .hbm, ⟨33, _⟩ => ⟨S1200000, .i32⟩
  | .hbm, ⟨34, _⟩ => ⟨S1200000, .i1⟩
  | .hbm, ⟨35, _⟩ => ⟨S_, .i32⟩
  | .hbm, ⟨36, _⟩ => ⟨S1200000, .i32⟩
  | .hbm, ⟨37, _⟩ => ⟨S1200000, .i32⟩
  | .hbm, ⟨38, _⟩ => ⟨S1200000, .i32⟩
  | .hbm, ⟨39, _⟩ => ⟨S1200000x1, .i32⟩
  | .hbm, ⟨40, _⟩ => ⟨S1200000, .f32⟩
  | .hbm, ⟨41, _⟩ => ⟨S1200000x1, .f32⟩
  | .hbm, ⟨42, _⟩ => ⟨S64x32, .f32⟩
  | .hbm, ⟨43, _⟩ => ⟨S64x32, .f32⟩
  | .hbm, ⟨44, _⟩ => ⟨S1x32, .f32⟩
  | .hbm, ⟨45, _⟩ => ⟨S1x32, .f32⟩
  | .hbm, ⟨46, _⟩ => ⟨S1x1, .f32⟩
  | .hbm, ⟨47, _⟩ => ⟨S1200000x1, .f32⟩
  | .hbm, ⟨48, _⟩ => ⟨S1200000, .f32⟩
  | .hbm, ⟨49, _⟩ => ⟨S_, .f32⟩
  | .hbm, ⟨50, _⟩ => ⟨S50000, .f32⟩
  | .hbm, ⟨51, _⟩ => ⟨S1200000x1, .i32⟩
  | .hbm, ⟨52, _⟩ => ⟨S50000, .f32⟩
  | .local _ .vmem, ⟨0, _⟩ => ⟨S6000x64, .bf16⟩
  | .local _ .vmem, ⟨1, _⟩ => ⟨S6000x64, .bf16⟩
  | .local _ .vmem, ⟨2, _⟩ => ⟨S6000x64, .bf16⟩
  | .local _ .vmem, ⟨3, _⟩ => ⟨S6000x64, .bf16⟩
  | .local _ .vmem, ⟨4, _⟩ => ⟨S6000x1, .f32⟩
  | .local _ .vmem, ⟨5, _⟩ => ⟨S6000x1, .f32⟩
  | .local _ .vmem, ⟨6, _⟩ => ⟨S64x32, .f32⟩
  | .local _ .vmem, ⟨7, _⟩ => ⟨S64x32, .f32⟩
  | .local _ .vmem, ⟨8, _⟩ => ⟨S1x32, .f32⟩
  | .local _ .vmem, ⟨9, _⟩ => ⟨S32x32, .f32⟩
  | .local _ .vmem, ⟨10, _⟩ => ⟨S1x32, .f32⟩
  | .local _ .vmem, ⟨11, _⟩ => ⟨S32x1, .f32⟩
  | .local _ .vmem, ⟨12, _⟩ => ⟨S1x1, .f32⟩
  | .local _ .vmem, ⟨13, _⟩ => ⟨S6000x1, .f32⟩
  | .local _ .vmem, ⟨14, _⟩ => ⟨S6000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S6000x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bitsLt_bf16_f32 : FTy.bits .bf16 < FTy.bits .f32
  bcast_S_S1200000 : S_.BroadcastsInDim S1200000 (![] : Fin 0 → Fin S1200000.rank)
  bcast_S1200000_S1200000x1_0 : S1200000.BroadcastsInDim S1200000x1 (![0] : Fin 1 → Fin S1200000x1.rank)
  shapeCasts_S1200000_S1200000x1 : S1200000.ShapeCasts S1200000x1
  slices_S128x32_S64x32_0_0 : S128x32.Slices ![0, 0] S64x32
  slices_S128x32_S64x32_64_0 : S128x32.Slices ![64, 0] S64x32
  shapeCasts_S32_S1x32 : S32.ShapeCasts S1x32
  shapeCasts_S1_S1x1 : S1.ShapeCasts S1x1
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S6000x32 : S1x32.Broadcasts S6000x32
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6000x1 : S1x1.Broadcasts S6000x1
  inb_S6000x1_S6000x1_0_0 : ∀ a, (![0, 0] : Fin 2 → Nat) a + S6000x1.size a ≤ S6000x1.size a
  h_S6000x1 : 0 < S6000x1.numel
  shapeCasts_S6000x1_S6000x1 : S6000x1.ShapeCasts S6000x1
  shapeCasts_S1200000x1_S1200000 : S1200000x1.ShapeCasts S1200000
  bcast_S_S50000 : S_.BroadcastsInDim S50000 (![] : Fin 0 → Fin S50000.rank)
  gather_S50000x64_S1200000x1_S1200000x64_1_0_n_n_0_1_164_wf : GatherDims.WF S50000x64 S1200000x1 S1200000x64 [1] [0] [] [0] [] 1 ![1, 64]
  gather_S50000_S1200000x1_S1200000_n_0_n_n_0_1_1_wf : GatherDims.WF S50000 S1200000x1 S1200000 [] [0] [] [0] [] 1 ![1]
  dot_S6000x64_S64x32_S6000x32_1_0_0_1_n_n_wf : DotDims.WF S6000x64 S64x32 S6000x32 [1] [0] [0] [1] [] []
  dot_S6000x32_S32x32_S6000x32_1_0_0_1_n_n_wf : DotDims.WF S6000x32 S32x32 S6000x32 [1] [0] [0] [1] [] []
  dot_S6000x32_S32x1_S6000x1_1_0_0_1_n_n_wf : DotDims.WF S6000x32 S32x1 S6000x1 [1] [0] [0] [1] [] []
  scatter_S50000_S1200000x1_S1200000_n_0_0_1_wf : ScatterDims.WF S50000 S1200000x1 S1200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S1200000x64.size a
  hwx0_0 : ∀ i : grid0.Coords, EltTy.bits .bf16 = 32 ∨ (Rect.block (s := S1200000x64) S6000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x64.size a ≤ S1200000x64.size a
  hwx0_1 : ∀ i : grid0.Coords, EltTy.bits .bf16 = 32 ∨ (Rect.block (s := S1200000x64) S6000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x1.size a ≤ S1200000x1.size a
  hwx0_2 : ∀ i : grid0.Coords, EltTy.bits .f32 = 32 ∨ (Rect.block (s := S1200000x1) S6000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x1.size a ≤ S32x1.size a
  hwx0_8 : ∀ i : grid0.Coords, EltTy.bits .f32 = 32 ∨ (Rect.block (s := S32x1) S32x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S6000x1.size a ≤ S1200000x1.size a
  hwx0_10 : ∀ i : grid0.Coords, EltTy.bits .f32 = 32 ∨ (Rect.block (s := S1200000x1) S6000x1.size (cc0_transform_10 i) (hinb0_10 i)).WholeWords (EltTy.packing .f32)

variable [Facts₀]

def gather_S50000x64_S1200000x1_S1200000x64_1_0_n_n_0_1_164 : GatherDims S50000x64 S1200000x1 S1200000x64 where
  offsetDims := [1]
  collapsedSliceDims := [0]
  operandBatchingDims := []
  startIndicesBatchingDims := []
  startIndexMap := [0]
  indexVectorDim := 1
  sliceSizes := ![1, 64]
  wf := gather_S50000x64_S1200000x1_S1200000x64_1_0_n_n_0_1_164_wf
def gather_S50000_S1200000x1_S1200000_n_0_n_n_0_1_1 : GatherDims S50000 S1200000x1 S1200000 where
  offsetDims := []
  collapsedSliceDims := [0]
  operandBatchingDims := []
  startIndicesBatchingDims := []
  startIndexMap := [0]
  indexVectorDim := 1
  sliceSizes := ![1]
  wf := gather_S50000_S1200000x1_S1200000_n_0_n_n_0_1_1_wf
def dot_S6000x64_S64x32_S6000x32_1_0_0_1_n_n : DotDims S6000x64 S64x32 S6000x32 where
  lhsContracting := [1]
  rhsContracting := [0]
  lhsNonContracting := [0]
  rhsNonContracting := [1]
  lhsBatch := []
  rhsBatch := []
  wf := dot_S6000x64_S64x32_S6000x32_1_0_0_1_n_n_wf
def dot_S6000x32_S32x32_S6000x32_1_0_0_1_n_n : DotDims S6000x32 S32x32 S6000x32 where
  lhsContracting := [1]
  rhsContracting := [0]
  lhsNonContracting := [0]
  rhsNonContracting := [1]
  lhsBatch := []
  rhsBatch := []
  wf := dot_S6000x32_S32x32_S6000x32_1_0_0_1_n_n_wf
def dot_S6000x32_S32x1_S6000x1_1_0_0_1_n_n : DotDims S6000x32 S32x1 S6000x1 where
  lhsContracting := [1]
  rhsContracting := [0]
  lhsNonContracting := [0]
  rhsNonContracting := [1]
  lhsBatch := []
  rhsBatch := []
  wf := dot_S6000x32_S32x1_S6000x1_1_0_0_1_n_n_wf
def scatter_S50000_S1200000x1_S1200000_n_0_0_1 : ScatterDims S50000 S1200000x1 S1200000 where
  updateWindowDims := []
  insertedWindowDims := [0]
  scatterDimsToOperandDims := [0]
  indexVectorDim := 1
  wf := scatter_S50000_S1200000x1_S1200000_n_0_0_1_wf

abbrev win0_0 : Pipeline.Window sig grid0 :=
  Pipeline.Window.ofSpec (Memref.whole main_v11) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S6000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S6000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S32x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v31) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v32) S6000x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x1200000 : Shape := ⟨2, ![2, 1200000]⟩
abbrev S50000 : Shape := ⟨1, ![50000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1200000x128 : Shape := ⟨2, ![1200000, 128]⟩
abbrev S1200000x32 : Shape := ⟨2, ![1200000, 32]⟩
abbrev S1x32 : Shape := ⟨2, ![1, 32]⟩
abbrev S1x1 : Shape := ⟨2, ![1, 1]⟩

abbrev nBuf : Space → Nat
  | .hbm => 65
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1200000, .i32⟩
  | .hbm, ⟨2, _⟩ => ⟨S50000, .f32⟩
  | .hbm, ⟨3, _⟩ => ⟨S128x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S1x1200000, .i32⟩
  | .hbm, ⟨10, _⟩ => ⟨S1200000, .i32⟩
  | .hbm, ⟨11, _⟩ => ⟨S1x1200000, .i32⟩
  | .hbm, ⟨12, _⟩ => ⟨S1200000, .i32⟩
  | .hbm, ⟨13, _⟩ => ⟨S_, .i32⟩
  | .hbm, ⟨14, _⟩ => ⟨S1200000, .i32⟩
  | .hbm, ⟨15, _⟩ => ⟨S1200000, .i1⟩
  | .hbm, ⟨16, _⟩ => ⟨S_, .i32⟩
  | .hbm, ⟨17, _⟩ => ⟨S1200000, .i32⟩
  | .hbm, ⟨18, _⟩ => ⟨S1200000, .i32⟩
  | .hbm, ⟨19, _⟩ => ⟨S1200000, .i32⟩
  | .hbm, ⟨20, _⟩ => ⟨S1200000x1, .i32⟩
  | .hbm, ⟨21, _⟩ => ⟨S1200000x64, .f32⟩
  | .hbm, ⟨22, _⟩ => ⟨S_, .i32⟩
  | .hbm, ⟨23, _⟩ => ⟨S1200000, .i32⟩
  | .hbm, ⟨24, _⟩ => ⟨S1200000, .i1⟩
  | .hbm, ⟨25, _⟩ => ⟨S_, .i32⟩
  | .hbm, ⟨26, _⟩ => ⟨S1200000, .i32⟩
  | .hbm, ⟨27, _⟩ => ⟨S1200000, .i32⟩
  | .hbm, ⟨28, _⟩ => ⟨S1200000, .i32⟩
  | .hbm, ⟨29, _⟩ => ⟨S1200000x1, .i32⟩
  | .hbm, ⟨30, _⟩ => ⟨S1200000x64, .f32⟩
  | .hbm, ⟨31, _⟩ => ⟨S1200000x128, .f32⟩
  | .hbm, ⟨32, _⟩ => ⟨S1200000x32, .f32⟩
  | .hbm, ⟨33, _⟩ => ⟨S1x32, .f32⟩
  | .hbm, ⟨34, _⟩ => ⟨S1200000x32, .f32⟩
  | .hbm, ⟨35, _⟩ => ⟨S1200000x32, .f32⟩
  | .hbm, ⟨36, _⟩ => ⟨S_, .f32⟩
  | .hbm, ⟨37, _⟩ => ⟨S1200000x32, .f32⟩
  | .hbm, ⟨38, _⟩ => ⟨S1200000x32, .f32⟩
  | .hbm, ⟨39, _⟩ => ⟨S1200000x32, .f32⟩
  | .hbm, ⟨40, _⟩ => ⟨S1x32, .f32⟩
  | .hbm, ⟨41, _⟩ => ⟨S1200000x32, .f32⟩
  | .hbm, ⟨42, _⟩ => ⟨S1200000x32, .f32⟩
  | .hbm, ⟨43, _⟩ => ⟨S_, .f32⟩
  | .hbm, ⟨44, _⟩ => ⟨S1200000x32, .f32⟩
  | .hbm, ⟨45, _⟩ => ⟨S1200000x32, .f32⟩
  | .hbm, ⟨46, _⟩ => ⟨S1200000x1, .f32⟩
  | .hbm, ⟨47, _⟩ => ⟨S1x1, .f32⟩
  | .hbm, ⟨48, _⟩ => ⟨S1200000x1, .f32⟩
  | .hbm, ⟨49, _⟩ => ⟨S1200000x1, .f32⟩
  | .hbm, ⟨50, _⟩ => ⟨S1200000, .f32⟩
  | .hbm, ⟨51, _⟩ => ⟨S_, .i32⟩
  | .hbm, ⟨52, _⟩ => ⟨S1200000, .i32⟩
  | .hbm, ⟨53, _⟩ => ⟨S1200000, .i1⟩
  | .hbm, ⟨54, _⟩ => ⟨S_, .i32⟩
  | .hbm, ⟨55, _⟩ => ⟨S1200000, .i32⟩
  | .hbm, ⟨56, _⟩ => ⟨S1200000, .i32⟩
  | .hbm, ⟨57, _⟩ => ⟨S1200000, .i32⟩
  | .hbm, ⟨58, _⟩ => ⟨S1200000x1, .i32⟩
  | .hbm, ⟨59, _⟩ => ⟨S1200000, .f32⟩
  | .hbm, ⟨60, _⟩ => ⟨S1200000, .f32⟩
  | .hbm, ⟨61, _⟩ => ⟨S_, .f32⟩
  | .hbm, ⟨62, _⟩ => ⟨S50000, .f32⟩
  | .hbm, ⟨63, _⟩ => ⟨S1200000x1, .i32⟩
  | .hbm, ⟨64, _⟩ => ⟨S50000, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_3 : Ref sig .tc := ⟨.hbm, 51, rfl⟩
abbrev main_v34 : Ref sig .tc := ⟨.hbm, 52, rfl⟩
abbrev main_v35 : Ref sig .tc := ⟨.hbm, 53, rfl⟩
abbrev main_c_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  concatenates_S1200000x64_S1200000x64_S1200000x128_d1 : Shape.Concatenates [S1200000x64, S1200000x64] S1200000x128 1
  bcast_S32_S1x32_1 : S32.BroadcastsInDim S1x32 (![1] : Fin 1 → Fin S1x32.rank)
  bcast_S1x32_S1200000x32_0_1 : S1x32.BroadcastsInDim S1200000x32 (![0, 1] : Fin 2 → Fin S1200000x32.rank)
  bcast_S_S1200000x32 : S_.BroadcastsInDim S1200000x32 (![] : Fin 0 → Fin S1200000x32.rank)
  bcast_S1_S1x1_1 : S1.BroadcastsInDim S1x1 (![1] : Fin 1 → Fin S1x1.rank)
  bcast_S1x1_S1200000x1_0_1 : S1x1.BroadcastsInDim S1200000x1 (![0, 1] : Fin 2 → Fin S1200000x1.rank)
  shapeCasts_S1200000x1_S1200000 : S1200000x1.ShapeCasts S1200000
  bcast_S_S50000 : S_.BroadcastsInDim S50000 (![] : Fin 0 → Fin S50000.rank)
  gather_S50000x64_S1200000x1_S1200000x64_1_0_n_n_0_1_164_wf : GatherDims.WF S50000x64 S1200000x1 S1200000x64 [1] [0] [] [0] [] 1 ![1, 64]
  dot_S1200000x128_S128x32_S1200000x32_1_0_0_1_n_n_wf : DotDims.WF S1200000x128 S128x32 S1200000x32 [1] [0] [0] [1] [] []
  dot_S1200000x32_S32x32_S1200000x32_1_0_0_1_n_n_wf : DotDims.WF S1200000x32 S32x32 S1200000x32 [1] [0] [0] [1] [] []
  dot_S1200000x32_S32x1_S1200000x1_1_0_0_1_n_n_wf : DotDims.WF S1200000x32 S32x1 S1200000x1 [1] [0] [0] [1] [] []
  gather_S50000_S1200000x1_S1200000_n_0_n_n_0_1_1_wf : GatherDims.WF S50000 S1200000x1 S1200000 [] [0] [] [0] [] 1 ![1]
  scatter_S50000_S1200000x1_S1200000_n_0_0_1_wf : ScatterDims.WF S50000 S1200000x1 S1200000 [] [0] [0] 1

variable [Facts₀]

def gather_S50000x64_S1200000x1_S1200000x64_1_0_n_n_0_1_164 : GatherDims S50000x64 S1200000x1 S1200000x64 where
  offsetDims := [1]
  collapsedSliceDims := [0]
  operandBatchingDims := []
  startIndicesBatchingDims := []
  startIndexMap := [0]
  indexVectorDim := 1
  sliceSizes := ![1, 64]
  wf := gather_S50000x64_S1200000x1_S1200000x64_1_0_n_n_0_1_164_wf
def dot_S1200000x128_S128x32_S1200000x32_1_0_0_1_n_n : DotDims S1200000x128 S128x32 S1200000x32 where
  lhsContracting := [1]
  rhsContracting := [0]
  lhsNonContracting := [0]
  rhsNonContracting := [1]
  lhsBatch := []
  rhsBatch := []
  wf := dot_S1200000x128_S128x32_S1200000x32_1_0_0_1_n_n_wf
def dot_S1200000x32_S32x32_S1200000x32_1_0_0_1_n_n : DotDims S1200000x32 S32x32 S1200000x32 where
  lhsContracting := [1]
  rhsContracting := [0]
  lhsNonContracting := [0]
  rhsNonContracting := [1]
  lhsBatch := []
  rhsBatch := []
  wf := dot_S1200000x32_S32x32_S1200000x32_1_0_0_1_n_n_wf
def dot_S1200000x32_S32x1_S1200000x1_1_0_0_1_n_n : DotDims S1200000x32 S32x1 S1200000x1 where
  lhsContracting := [1]
  rhsContracting := [0]
  lhsNonContracting := [0]
  rhsNonContracting := [1]
  lhsBatch := []
  rhsBatch := []
  wf := dot_S1200000x32_S32x1_S1200000x1_1_0_0_1_n_n_wf
def gather_S50000_S1200000x1_S1200000_n_0_n_n_0_1_1 : GatherDims S50000 S1200000x1 S1200000 where
  offsetDims := []
  collapsedSliceDims := [0]
  operandBatchingDims := []
  startIndicesBatchingDims := []
  startIndexMap := [0]
  indexVectorDim := 1
  sliceSizes := ![1]
  wf := gather_S50000_S1200000x1_S1200000_n_0_n_n_0_1_1_wf
def scatter_S50000_S1200000x1_S1200000_n_0_0_1 : ScatterDims S50000 S1200000x1 S1200000 where
  updateWindowDims := []
  insertedWindowDims := [0]
  scatterDimsToOperandDims := [0]
  indexVectorDim := 1
  wf := scatter_S50000_S1200000x1_S1200000_n_0_0_1_wf

class Facts : Prop extends Facts₀ where

variable [Facts]
-- ==== Proof.EdgeMsg.lean ====
/-
  The message one edge sends, as a function of that edge's data.

  An edge carries the 64 features of its source row `xr`, the 64 features of its target row `xc` and the scalar `uc`
  of its target. A three-layer perceptron maps the 128 joined features to one weight: a 128 → 32 affine layer and a
  clamp at zero from below, a 32 → 32 affine layer and the same clamp, a 32 → 1 affine layer. The message is that
  weight times `uc`. Everything is over the extended reals.

  The first layer can be written in two ways. `edge` takes the two halves of the feature vector and the two halves of
  the first weight matrix apart and adds the two partial products; `edgeJoined` takes the joined 128-vector against
  the whole matrix. A sum over 128 = 64 + 64 indices is the sum over the first 64 plus the sum over the last 64, in
  any additive commutative monoid, so the two agree (`edgeJoined_eq_edge`); nothing has to be finite.
-/
import Idealize.ShloMosaic.PureOps.Ideal
import Idealize.ShloMosaic.Lib.ValueIdx

noncomputable section

open scoped BigOperators

namespace Cert.EdgeMsg

open Idealize.ShloMosaic

/-- The clamp's lower bound: the extended real the all-zero word denotes. -/
abbrev floor0 : EReal := Ideal.ofBits .f32 0x00000000#32

/-- One edge's message, the first layer split into the source half and the target half. -/
def edge (xr xc : Fin 64 → EReal) (uc : EReal) (w1a w1b : Fin 64 → Fin 32 → EReal) (b1 : Fin 32 → EReal)
    (w2 : Fin 32 → Fin 32 → EReal) (b2 : Fin 32 → EReal) (w3 : Fin 32 → EReal) (b3 : EReal) : EReal :=
  ((∑ k : Fin 32, max ((∑ j : Fin 32,
      max (((∑ d : Fin 64, xr d * w1a d j) + ∑ d : Fin 64, xc d * w1b d j) + b1 j) floor0 * w2 j k) + b2 k) floor0 * w3 k)
    + b3) * uc

/-- One edge's message, the first layer over the joined 128 features. -/
def edgeJoined (xe : Fin 128 → EReal) (uc : EReal) (w1 : Fin 128 → Fin 32 → EReal) (b1 : Fin 32 → EReal)
    (w2 : Fin 32 → Fin 32 → EReal) (b2 : Fin 32 → EReal) (w3 : Fin 32 → EReal) (b3 : EReal) : EReal :=
  ((∑ k : Fin 32, max ((∑ j : Fin 32,
      max ((∑ d : Fin 128, xe d * w1 d j) + b1 j) floor0 * w2 j k) + b2 k) floor0 * w3 k)
    + b3) * uc

/-- Position `d` of the first half of 128. -/
abbrev lo (d : Fin 64) : Fin 128 := ⟨d.val, by have := d.isLt; omega⟩
/-- Position `d` of the second half of 128. -/
abbrev hi (d : Fin 64) : Fin 128 := ⟨64 + d.val, by have := d.isLt; omega⟩

/-- A sum over 128 indices is the sum over the first 64 plus the sum over the last 64. -/
theorem sum_halves {M : Type*} [AddCommMonoid M] (f : Fin 128 → M) :
    ∑ d : Fin 128, f d = (∑ d : Fin 64, f (lo d)) + ∑ d : Fin 64, f (hi d) :=
  Fin.sum_univ_add (a := 64) (b := 64) f

/-- The two ways of writing the first layer agree. -/
theorem edgeJoined_eq_edge (xe : Fin 128 → EReal) (uc : EReal) (w1 : Fin 128 → Fin 32 → EReal) (b1 : Fin 32 → EReal)
    (w2 : Fin 32 → Fin 32 → EReal) (b2 : Fin 32 → EReal) (w3 : Fin 32 → EReal) (b3 : EReal) :
    edgeJoined xe uc w1 b1 w2 b2 w3 b3
      = edge (fun d => xe (lo d)) (fun d => xe (hi d)) uc (fun d j => w1 (lo d) j) (fun d j => w1 (hi d) j) b1 w2 b2 w3 b3 := by
  unfold edgeJoined edge
  simp only [sum_halves fun d => xe d * w1 d _]

end Cert.EdgeMsg

end
-- ==== Proof.LibMatmulBlock.lean ====
/-
  One block of a matrix product, entry by entry.

  A product of an m×k array by a k×n array, contracted over the left operand's second axis and the right operand's
  first, and accumulated into the all-zero array, has at entry (a, b) the value ∑_c A[a, c] · B[c, b] over the
  extended reals. The contraction's index set has one axis of extent k, so the sum over it is re-indexed by that
  axis's coordinate.
-/
import Idealize.ShloMosaic.PureOps.Ideal
import Idealize.ShloMosaic.PureOps.Ideal.Laws
import Idealize.ShloMosaic.Lib.ValueIdx

noncomputable section

namespace Cert.LibMatmulBlock

open Idealize.ShloMosaic Idealize.ShloMosaic.ValueIdx

/-- The product of an m×k block by a k×n block accumulated into the zero splat, read at entry (a, b), is the sum over
    the contracted coordinate c of A[a, c] · B[c, b]. At the ideal values; `w` is the dimension numbers'
    well-formedness, which a program states. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulBlock

end
-- ==== Proof.KernelPayload.lean ====
/-
  What the kernel's body stores, entry by entry.

  At one grid point the body holds 6000 edges: their source rows `x0` and target rows `x1` (6000 × 64 each), their
  target scalars `x2` (6000 × 1), and the perceptron's weights — the two 64 × 32 halves `x3`, `x4` of the first
  matrix, the biases `x5`, `x7` as 1 × 32 rows, the 32 × 32 matrix `x6`, the 32 × 1 matrix `x8` and the 1 × 1 bias `x9`.
  Each of its three matrix products accumulates into zero, so at an entry it is the plain sum of products over the
  contracted coordinate; a bias row is added to every row; the clamp is the maximum with zero; a change of float
  format does nothing to an extended real. Row `p` of what it stores is therefore `edge` of row `p` of the inputs.
-/
import proofs.«117424_j51591147160149_2_alg».proof.Proof.Gen.KernelIdeal.Skeleton
import proofs.«117424_j51591147160149_2_alg».proof.Proof.EdgeMsg
import proofs.«117424_j51591147160149_2_alg».proof.Proof.LibMatmulBlock
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.EdgeMsg

/-- A 6000 × 64 by 64 × 32 product into zero, at entry (p, j). -/
theorem mm1 {φ₁ φ₂ : FTy} (A : FVec Ideal S6000x64 φ₁) (W : FVec Ideal S64x32 φ₂) (p : Fin 6000) (j : Fin 32) :
    matmul dot_S6000x64_S64x32_S6000x32_1_0_0_1_n_n none A W (constant (F := Ideal) S6000x32 .f32 0x00000000#32) (ix2 p j)
      = ∑ d : Fin 64, A (ix2 p d) * W (ix2 d j) :=
  Cert.LibMatmulBlock.matmul_zero_apply Facts₀.dot_S6000x64_S64x32_S6000x32_1_0_0_1_n_n_wf none A W p j

/-- A 6000 × 32 by 32 × 32 product into zero, at entry (p, k). -/
theorem mm2 {φ₁ φ₂ : FTy} (A : FVec Ideal S6000x32 φ₁) (W : FVec Ideal S32x32 φ₂) (p : Fin 6000) (k : Fin 32) :
    matmul dot_S6000x32_S32x32_S6000x32_1_0_0_1_n_n none A W (constant (F := Ideal) S6000x32 .f32 0x00000000#32) (ix2 p k)
      = ∑ j : Fin 32, A (ix2 p j) * W (ix2 j k) :=
  Cert.LibMatmulBlock.matmul_zero_apply Facts₀.dot_S6000x32_S32x32_S6000x32_1_0_0_1_n_n_wf none A W p k

/-- A 6000 × 32 by 32 × 1 product into zero, at entry (p, q). -/
theorem mm3 {φ₁ φ₂ : FTy} (A : FVec Ideal S6000x32 φ₁) (W : FVec Ideal S32x1 φ₂) (p : Fin 6000) (q : Fin 1) :
    matmul dot_S6000x32_S32x1_S6000x1_1_0_0_1_n_n none A W (constant (F := Ideal) S6000x1 .f32 0x00000000#32) (ix2 p q)
      = ∑ k : Fin 32, A (ix2 p k) * W (ix2 k q) :=
  Cert.LibMatmulBlock.matmul_zero_apply Facts₀.dot_S6000x32_S32x1_S6000x1_1_0_0_1_n_n_wf none A W p q

/-- Row `p` of the stored block is `edge` of row `p` of the loaded blocks. -/
theorem stored_apply (x0 x1 : Vec Ideal S6000x64 .bf16) (x2 : Vec Ideal S6000x1 .f32) (x3 x4 : Vec Ideal S64x32 .f32)
    (x5 : Vec Ideal S1x32 .f32) (x6 : Vec Ideal S32x32 .f32) (x7 : Vec Ideal S1x32 .f32) (x8 : Vec Ideal S32x1 .f32)
    (x9 : Vec Ideal S1x1 .f32) (p : Fin 6000) (q : Fin 1) :
    k0_pay1 (k0_pay2 x0 x1 x3 x4 x5 x6 x7 x8) (k0_pay3 x9) x2 (ix2 p q)
      = edge (fun d => x0 (ix2 p d)) (fun d => x1 (ix2 p d)) (x2 (ix2 p (0 : Fin 1)))
          (fun d j => x3 (ix2 d j)) (fun d j => x4 (ix2 d j)) (fun j => x5 (ix2 (0 : Fin 1) j))
          (fun j k => x6 (ix2 j k)) (fun k => x7 (ix2 (0 : Fin 1) k)) (fun k => x8 (ix2 k (0 : Fin 1)))
          (x9 (ix2 (0 : Fin 1) (0 : Fin 1))) := by
  obtain rfl : q = 0 := Subsingleton.elim _ _
  unfold k0_pay1 k0_pay2 k0_pay3 edge
  simp only [shapeCast_self, mulf_apply, addf_apply, maximumf_apply, truncf_apply, broadcast_apply, mm1, mm2, mm3,
    broadcastTo_1b_ab_apply]
  rfl

end Cert.KernelIdeal.Payload

end
-- ==== Proof.KernelArray.lean ====
/-
  The kernel's output array after the run, as one function of the arrays the region finds.

  The grid has 200 points; point `t` reads rows 6000·t … 6000·t + 5999 of the two gathered feature arrays and of the
  gathered scalars, reads every weight array whole, and writes back rows 6000·t … 6000·t + 5999 of the 1200000 × 1
  output. What it writes in row `p` of its block is `edge` of row `p` of what it read (`Payload.stored_apply`), that is
  `edge` of row 6000·t + p of the arrays. The 200 blocks tile the output, so the output array ends as the function
  `msgArr` of the operand arrays: row `r` holds `edge` of row `r`.
-/
import proofs.«117424_j51591147160149_2_alg».proof.Proof.Gen.KernelIdeal.Frame
import proofs.«117424_j51591147160149_2_alg».proof.Proof.KernelPayload

noncomputable section

namespace Cert.KernelIdeal.Arr

open Cert.KernelIdeal Cert.KernelIdeal.Gen Idealize.ShloMosaic Idealize.ShloMosaic.TcCoe Idealize.SL.Sem
open Idealize.ShloMosaic.ValueIdx Cert.EdgeMsg
open Idealize.ShloMosaic.Pipeline (Dat)

/-- Row `r` of the message array: `edge` of row `r` of the gathered features and scalars, against the weights. -/
def msgRow (XR XC : S1200000x64.Idx → EReal) (UC : S1200000x1.Idx → EReal) (W1a W1b : S64x32.Idx → EReal)
    (B1 : S1x32.Idx → EReal) (W2 : S32x32.Idx → EReal) (B2 : S1x32.Idx → EReal) (W3 : S32x1.Idx → EReal)
    (B3 : S1x1.Idx → EReal) (r : Fin 1200000) : EReal :=
  edge (fun d => XR (ix2 r d)) (fun d => XC (ix2 r d)) (UC (ix2 r (0 : Fin 1)))
    (fun d j => W1a (ix2 d j)) (fun d j => W1b (ix2 d j)) (fun j => B1 (ix2 (0 : Fin 1) j))
    (fun j k => W2 (ix2 j k)) (fun k => B2 (ix2 (0 : Fin 1) k)) (fun k => W3 (ix2 k (0 : Fin 1)))
    (B3 (ix2 (0 : Fin 1) (0 : Fin 1)))

/-- The message array, 1200000 × 1. -/
def msgArr (XR XC : S1200000x64.Idx → EReal) (UC : S1200000x1.Idx → EReal) (W1a W1b : S64x32.Idx → EReal)
    (B1 : S1x32.Idx → EReal) (W2 : S32x32.Idx → EReal) (B2 : S1x32.Idx → EReal) (W3 : S32x1.Idx → EReal)
    (B3 : S1x1.Idx → EReal) : S1200000x1.Idx → EReal :=
  fun i => msgRow XR XC UC W1a W1b B1 W2 B2 W3 B3 ⟨(i 0).val, idx2_lt0 i⟩

/-- A block of 6000 rows whose inputs are rows `row p` of the arrays stores rows `row p` of the message array. -/
theorem block_row (XR XC : S1200000x64.Idx → EReal) (UC : S1200000x1.Idx → EReal) (W1a W1b : S64x32.Idx → EReal)
    (B1 : S1x32.Idx → EReal) (W2 : S32x32.Idx → EReal) (B2 : S1x32.Idx → EReal) (W3 : S32x1.Idx → EReal)
    (B3 : S1x1.Idx → EReal)
    (x0 x1 : Vec Ideal S6000x64 .bf16) (x2 : Vec Ideal S6000x1 .f32) (x3 x4 : Vec Ideal S64x32 .f32)
    (x5 : Vec Ideal S1x32 .f32) (x6 : Vec Ideal S32x32 .f32) (x7 : Vec Ideal S1x32 .f32) (x8 : Vec Ideal S32x1 .f32)
    (x9 : Vec Ideal S1x1 .f32) (row : Fin 6000 → Fin 1200000)
    (h0 : ∀ (p : Fin 6000) (d : Fin 64), x0 (ix2 p d) = XR (ix2 (row p) d))
    (h1 : ∀ (p : Fin 6000) (d : Fin 64), x1 (ix2 p d) = XC (ix2 (row p) d))
    (h2 : ∀ (p : Fin 6000) (q : Fin 1), x2 (ix2 p q) = UC (ix2 (row p) q))
    (h3 : ∀ (d : Fin 64) (j : Fin 32), x3 (ix2 d j) = W1a (ix2 d j))
    (h4 : ∀ (d : Fin 64) (j : Fin 32), x4 (ix2 d j) = W1b (ix2 d j))
    (h5 : ∀ (u : Fin 1) (j : Fin 32), x5 (ix2 u j) = B1 (ix2 u j))
    (h6 : ∀ (j k : Fin 32), x6 (ix2 j k) = W2 (ix2 j k))
    (h7 : ∀ (u : Fin 1) (k : Fin 32), x7 (ix2 u k) = B2 (ix2 u k))
    (h8 : ∀ (k : Fin 32) (q : Fin 1), x8 (ix2 k q) = W3 (ix2 k q))
    (h9 : ∀ (u q : Fin 1), x9 (ix2 u q) = B3 (ix2 u q))
    (p : Fin 6000) (q : Fin 1) :
    k0_pay1 (k0_pay2 x0 x1 x3 x4 x5 x6 x7 x8) (k0_pay3 x9) x2 (ix2 p q)
      = msgRow XR XC UC W1a W1b B1 W2 B2 W3 B3 (row p) := by
  rw [Payload.stored_apply]
  unfold msgRow
  simp only [h0, h1, h2, h3, h4, h5, h6, h7, h8, h9]

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 200 points: the three per-edge inputs and the output are at block `t` of their
    rows and block 0 of their columns; every weight array is its one block. -/
theorem idx_facts : ∀ t : Fin cfg0.N,
    win0_10.index t (0 : Fin 2) = t.val ∧ win0_10.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- The array row that row `p` of point `t`'s blocks is. -/
def rowAt (t : Fin cfg0.N) (p : Fin 6000) : Fin 1200000 :=
  ⟨t.val * 6000 + p.val, by have := t.isLt; have hN : cfg0.N = 200 := N_0; have := p.isLt; omega⟩

/-- Row `p` of input window 0's block at point `t` is row 6000·t + p of its array. -/
theorem read0 (c : Dev nD) (t : Fin cfg0.N) (p : Fin 6000) (d : Fin 64) :
    iblk m c 0 t (ix2 p d) = V m c main_v11 (ix2 (rowAt t p) d) := by
  obtain ⟨-, -, e0, e1, -⟩ := idx_facts t
  show V m c main_v11 (((cfg0.win 0).blk t).view.emb (ix2 p d)) = V m c main_v11 (ix2 (rowAt t p) d)
  refine congrArg _ (funext fun a => Fin.ext ?_)
  match a with
  | ⟨0, _⟩ => show win0_0.index t (0 : Fin 2) * 6000 + 1 * p.val = t.val * 6000 + p.val; omega
  | ⟨1, _⟩ => show win0_0.index t (1 : Fin 2) * 64 + 1 * d.val = d.val; omega

/-- Row `p` of input window 1's block at point `t` is row 6000·t + p of its array. -/
theorem read1 (c : Dev nD) (t : Fin cfg0.N) (p : Fin 6000) (d : Fin 64) :
    iblk m c 1 t (ix2 p d) = V m c main_v18 (ix2 (rowAt t p) d) := by
  obtain ⟨-, -, -, -, e0, e1, -⟩ := idx_facts t
  show V m c main_v18 (((cfg0.win 1).blk t).view.emb (ix2 p d)) = V m c main_v18 (ix2 (rowAt t p) d)
  refine congrArg _ (funext fun a => Fin.ext ?_)
  match a with
  | ⟨0, _⟩ => show win0_1.index t (0 : Fin 2) * 6000 + 1 * p.val = t.val * 6000 + p.val; omega
  | ⟨1, _⟩ => show win0_1.index t (1 : Fin 2) * 64 + 1 * d.val = d.val; omega

/-- Row `p` of input window 2's block at point `t` is row 6000·t + p of its array. -/
theorem read2 (c : Dev nD) (t : Fin cfg0.N) (p : Fin 6000) (q : Fin 1) :
    iblk m c 2 t (ix2 p q) = V m c main_v26 (ix2 (rowAt t p) q) := by
  obtain ⟨-, -, -, -, -, -, e0, e1, -⟩ := idx_facts t
  show V m c main_v26 (((cfg0.win 2).blk t).view.emb (ix2 p q)) = V m c main_v26 (ix2 (rowAt t p) q)
  refine congrArg _ (funext fun a => Fin.ext ?_)
  match a with
  | ⟨0, _⟩ => show win0_2.index t (0 : Fin 2) * 6000 + 1 * p.val = t.val * 6000 + p.val; omega
  | ⟨1, _⟩ => show win0_2.index t (1 : Fin 2) * 1 + 1 * q.val = q.val; omega

/-- Input window 3's block at every point is its whole array. -/
theorem read3 (c : Dev nD) (t : Fin cfg0.N) (d : Fin 64) (j : Fin 32) :
    iblk m c 3 t (ix2 d j) = V m c main_v27 (ix2 d j) := by
  obtain ⟨-, -, -, -, -, -, -, -, e0, e1, -⟩ := idx_facts t
  show V m c main_v27 (((cfg0.win 3).blk t).view.emb (ix2 d j)) = V m c main_v27 (ix2 d j)
  refine congrArg _ (funext fun a => Fin.ext ?_)
  match a with
  | ⟨0, _⟩ => show win0_3.index t (0 : Fin 2) * 64 + 1 * d.val = d.val; omega
  | ⟨1, _⟩ => show win0_3.index t (1 : Fin 2) * 32 + 1 * j.val = j.val; omega

/-- Input window 4's block at every point is its whole array. -/
theorem read4 (c : Dev nD) (t : Fin cfg0.N) (d : Fin 64) (j : Fin 32) :
    iblk m c 4 t (ix2 d j) = V m c main_v28 (ix2 d j) := by
  obtain ⟨-, -, -, -, -, -, -, -, -, -, e0, e1, -⟩ := idx_facts t
  show V m c main_v28 (((cfg0.win 4).blk t).view.emb (ix2 d j)) = V m c main_v28 (ix2 d j)
  refine congrArg _ (funext fun a => Fin.ext ?_)
  match a with
  | ⟨0, _⟩ => show win0_4.index t (0 : Fin 2) * 64 + 1 * d.val = d.val; omega
  | ⟨1, _⟩ => show win0_4.index t (1 : Fin 2) * 32 + 1 * j.val = j.val; omega

/-- Input window 5's block at every point is its whole array. -/
theorem read5 (c : Dev nD) (t : Fin cfg0.N) (u : Fin 1) (j : Fin 32) :
    iblk m c 5 t (ix2 u j) = V m c main_v29 (ix2 u j) := by
  obtain ⟨-, -, -, -, -, -, -, -, -, -, -, -, e0, e1, -⟩ := idx_facts t
  show V m c main_v29 (((cfg0.win 5).blk t).view.emb (ix2 u j)) = V m c main_v29 (ix2 u j)
  refine congrArg _ (funext fun a => Fin.ext ?_)
  match a with
  | ⟨0, _⟩ => show win0_5.index t (0 : Fin 2) * 1 + 1 * u.val = u.val; omega
  | ⟨1, _⟩ => show win0_5.index t (1 : Fin 2) * 32 + 1 * j.val = j.val; omega

/-- Input window 6's block at every point is its whole array. -/
theorem read6 (c : Dev nD) (t : Fin cfg0.N) (j : Fin 32) (k : Fin 32) :
    iblk m c 6 t (ix2 j k) = V m c main_arg5 (ix2 j k) := by
  obtain ⟨-, -, -, -, -, -, -, -, -, -, -, -, -, -, e0, e1, -⟩ := idx_facts t
  show V m c main_arg5 (((cfg0.win 6).blk t).view.emb (ix2 j k)) = V m c main_arg5 (ix2 j k)
  refine congrArg _ (funext fun a => Fin.ext ?_)
  match a with
  | ⟨0, _⟩ => show win0_6.index t (0 : Fin 2) * 32 + 1 * j.val = j.val; omega
  | ⟨1, _⟩ => show win0_6.index t (1 : Fin 2) * 32 + 1 * k.val = k.val; omega

/-- Input window 7's block at every point is its whole array. -/
theorem read7 (c : Dev nD) (t : Fin cfg0.N) (u : Fin 1) (k : Fin 32) :
    iblk m c 7 t (ix2 u k) = V m c main_v30 (ix2 u k) := by
  obtain ⟨-, -, -, -, -, -, -, -, -, -, -, -, -, -, -, -, e0, e1, -⟩ := idx_facts t
  show V m c main_v30 (((cfg0.win 7).blk t).view.emb (ix2 u k)) = V m c main_v30 (ix2 u k)
  refine congrArg _ (funext fun a => Fin.ext ?_)
  match a with
  | ⟨0, _⟩ => show win0_7.index t (0 : Fin 2) * 1 + 1 * u.val = u.val; omega
  | ⟨1, _⟩ => show win0_7.index t (1 : Fin 2) * 32 + 1 * k.val = k.val; omega

/-- Input window 8's block at every point is its whole array. -/
theorem read8 (c : Dev nD) (t : Fin cfg0.N) (k : Fin 32) (q : Fin 1) :
    iblk m c 8 t (ix2 k q) = V m c main_arg7 (ix2 k q) := by
  obtain ⟨-, -, -, -, -, -, -, -, -, -, -, -, -, -, -, -, -, -, e0, e1, -⟩ := idx_facts t
  show V m c main_arg7 (((cfg0.win 8).blk t).view.emb (ix2 k q)) = V m c main_arg7 (ix2 k q)
  refine congrArg _ (funext fun a => Fin.ext ?_)
  match a with
  | ⟨0, _⟩ => show win0_8.index t (0 : Fin 2) * 32 + 1 * k.val = k.val; omega
  | ⟨1, _⟩ => show win0_8.index t (1 : Fin 2) * 1 + 1 * q.val = q.val; omega

/-- Input window 9's block at every point is its whole array. -/
theorem read9 (c : Dev nD) (t : Fin cfg0.N) (u : Fin 1) (q : Fin 1) :
    iblk m c 9 t (ix2 u q) = V m c main_v31 (ix2 u q) := by
  obtain ⟨-, -, -, -, -, -, -, -, -, -, -, -, -, -, -, -, -, -, -, -, e0, e1⟩ := idx_facts t
  show V m c main_v31 (((cfg0.win 9).blk t).view.emb (ix2 u q)) = V m c main_v31 (ix2 u q)
  refine congrArg _ (funext fun a => Fin.ext ?_)
  match a with
  | ⟨0, _⟩ => show win0_9.index t (0 : Fin 2) * 1 + 1 * u.val = u.val; omega
  | ⟨1, _⟩ => show win0_9.index t (1 : Fin 2) * 1 + 1 * q.val = q.val; omega

set_option maxHeartbeats 1000000 in
/-- WHAT POINT `t` WRITES BACK is block `t` of the message array of the operand arrays as the region finds them. -/
theorem flushed_eq (c : Dev nD) (t : Fin cfg0.N) :
    (dats m 0 c).flushed 10 t = ((cfg0.win 10).blk t).view.read (Elt Ideal)
      (msgArr (V m c main_v11) (V m c main_v18) (V m c main_v26) (V m c main_v27) (V m c main_v28) (V m c main_v29)
        (V m c main_arg5) (V m c main_v30) (V m c main_arg7) (V m c main_v31)) := by
  show (cfg0.win 10).cut (grid0.coords t) ((dats m 0 c).after 10 t) = _
  rw [after0_10]
  unfold out0_10
  rw [View.canon_unit_zero hz]
  simp only [View.ld_unit_zero (S := S6000x64) hz, View.ld_unit_zero (S := S6000x1) hz, View.ld_unit_zero (S := S64x32) hz,
    View.ld_unit_zero (S := S1x32) hz, View.ld_unit_zero (S := S32x32) hz, View.ld_unit_zero (S := S32x1) hz,
    View.ld_unit_zero (S := S1x1) hz]
  obtain ⟨e100, -⟩ := idx_facts t
  funext y
  obtain ⟨p, q, rfl⟩ : ∃ (p : Fin 6000) (q : Fin 1), y = ix2 p q := ⟨y 0, y 1, eq_ix2 y⟩
  refine (block_row (V m c main_v11) (V m c main_v18) (V m c main_v26) (V m c main_v27) (V m c main_v28) (V m c main_v29)
    (V m c main_arg5) (V m c main_v30) (V m c main_arg7) (V m c main_v31)
    (iblk m c 0 t) (iblk m c 1 t) (iblk m c 2 t) (iblk m c 3 t) (iblk m c 4 t) (iblk m c 5 t) (iblk m c 6 t) (iblk m c 7 t)
    (iblk m c 8 t) (iblk m c 9 t) (rowAt t) (read0 m c t) (read1 m c t) (read2 m c t) (read3 m c t) (read4 m c t)
    (read5 m c t) (read6 m c t) (read7 m c t) (read8 m c t) (read9 m c t) p q).trans ?_
  show msgRow _ _ _ _ _ _ _ _ _ _ (rowAt t p)
    = msgRow _ _ _ _ _ _ _ _ _ _ ⟨((((cfg0.win 10).blk t).view.emb (ix2 p q)) 0).val, _⟩
  refine congrArg _ (Fin.ext ?_)
  show t.val * 6000 + p.val = win0_10.index t (0 : Fin 2) * 6000 + 1 * p.val
  omega

/-- An index of the output array is in point `t`'s block iff each coordinate is in the block's range on its axis. -/
theorem mem_blk (t : Fin cfg0.N) (i : S1200000x1.Idx) :
    i ∈ ((cfg0.win 10).blk t).view.set ↔ ∀ a : Fin 2, win0_10.index t a * S6000x1.size a ≤ (i a).val
      ∧ (i a).val < win0_10.index t a * S6000x1.size a + S6000x1.size a := by
  show i ∈ ((View.whole main_v32).slice (win0_10.rect t)).set ↔ _
  rw [View.set_slice_whole, Rect.mem_set_unit]
  exact Iff.rfl

/-- Every row of the output is in the block of the point its row number divided by 6000 names. -/
theorem cover (i : S1200000x1.Idx) :
    ∃ t : Fin cfg0.N, (cfg0.win 10).flush t = true ∧ i ∈ ((cfg0.win 10).blk t).view.set := by
  have hi0 : (i 0).val < 1200000 := (i 0).isLt
  have hi1 : (i 1).val < 1 := (i 1).isLt
  have hN : cfg0.N = 200 := N_0
  refine ⟨⟨(i 0).val / 6000, by omega⟩, flush0_10 _, ?_⟩
  rw [mem_blk]
  obtain ⟨e100, e101, -⟩ := idx_facts ⟨(i 0).val / 6000, by omega⟩
  intro a
  match a with
  | ⟨0, _⟩ =>
    show win0_10.index ⟨(i 0).val / 6000, _⟩ (0 : Fin 2) * 6000 ≤ (i 0).val
      ∧ (i 0).val < win0_10.index ⟨(i 0).val / 6000, _⟩ (0 : Fin 2) * 6000 + 6000
    rw [e100]
    show (i 0).val / 6000 * 6000 ≤ (i 0).val ∧ (i 0).val < (i 0).val / 6000 * 6000 + 6000
    omega
  | ⟨1, _⟩ =>
    show win0_10.index ⟨(i 0).val / 6000, _⟩ (1 : Fin 2) * 1 ≤ (i 1).val
      ∧ (i 1).val < win0_10.index ⟨(i 0).val / 6000, _⟩ (1 : Fin 2) * 1 + 1
    rw [e101]
    omega

/-- THE OUTPUT ARRAY after the run is the message array of the operand arrays as the region finds them. -/
theorem final (c : Dev nD) :
    (dats m 0 c).arrAt 10 cfg0.N
      = msgArr (V m c main_v11) (V m c main_v18) (V m c main_v26) (V m c main_v27) (V m c main_v28) (V m c main_v29)
          (V m c main_arg5) (V m c main_v30) (V m c main_arg7) (V m c main_v31) :=
  (dats m 0 c).arrAt_eq_of_cover 10 _ (fun t _ => flushed_eq m c t) cover

end Cert.KernelIdeal.Arr

end
-- ==== Proof.KernelHost.lean ====
/-
  The host operations around the kernel's region.

  Before the region the program cuts the 2 × E index array into its source row and its target row, turns a negative
  index `i` into `i + 50000`, gathers the rows of the features (after a change of float format, which is the identity
  on extended reals) and the target scalars at those indices, cuts the first weight matrix into its two 64-row
  halves, and views the three bias vectors as one-row matrices. After the region it views the E × 1 output as a
  vector of E messages and adds message `e` into entry `source e` of a zero vector of length 50000. This module
  reads each of the region's operand arrays, and the program's result, as those operations of the argument arrays.
-/
import proofs.«117424_j51591147160149_2_alg».proof.Proof.Gen.KernelIdeal.Frame
import Idealize.ShloMosaic.Lib.StableHlo.Run
import Idealize.ShloMosaic.PureOps.Ideal

noncomputable section

namespace Cert.KernelIdeal.Host

open Cert.KernelIdeal Cert.KernelIdeal.Gen Idealize.ShloMosaic Idealize.ShloMosaic.TcCoe Idealize.SL.Sem
open Idealize.ShloMosaic.StableHlo

/-- Row 0 of the 2 × E index array: each edge's source. -/
def srcIdx (e : IVec S2x1200000 32) : IVec S1200000 32 :=
  shapeCast _ (extractStridedSlice S1x1200000 ![0, 0] e slices_S2x1200000_S1x1200000_0_0) shapeCasts_S1x1200000_S1200000

/-- Row 1 of the 2 × E index array: each edge's target. -/
def dstIdx (e : IVec S2x1200000 32) : IVec S1200000 32 :=
  shapeCast _ (extractStridedSlice S1x1200000 ![1, 0] e slices_S2x1200000_S1x1200000_1_0) shapeCasts_S1x1200000_S1200000

/-- An index vector as the E × 1 array of start indices a gather takes, a negative index `i` replaced by `i + 50000`. -/
def wrapCol (i : IVec S1200000 32) : IVec S1200000x1 32 :=
  broadcastInDim S1200000x1 ![0] bcast_S1200000_S1200000x1_0
    (select (cmpi .slt i (broadcastInDim S1200000 ![] bcast_S_S1200000 (constantI S_ 32 0#32)))
      (addi i (broadcastInDim S1200000 ![] bcast_S_S1200000 (constantI S_ 32 50000#32))) i)

variable (m : (ℓ : Loc nD τ sig) → Buf (Elt Ideal) ℓ) (ρ : Dev nD → PrngReg)

/-- The source-index vector as the region (and the operations after it) find it. -/
theorem V_v1 (c : Dev nD) :
    (V m c main_v1 : S1200000.Idx → BitVec 32) = srcIdx (m ((c : Thread nD τ).loc main_arg1)) := by
  show StableHlo.after hostOps0 (fun b => m (c, b)) (Proc.devRef .tc main_v1) = _
  after_results_simp <;> rfl

/-- The features gathered at the edges' sources. -/
theorem V_v11 (c : Dev nD) :
    (V m c main_v11 : S1200000x64.Idx → EReal)
      = Host.gather gather_S50000x64_S1200000x1_S1200000x64_1_0_n_n_0_1_164
          (truncf (F := Ideal) .bf16 (m ((c : Thread nD τ).loc main_arg0)) bitsLt_bf16_f32)
          (wrapCol (srcIdx (m ((c : Thread nD τ).loc main_arg1)))) := by
  show StableHlo.after hostOps0 (fun b => m (c, b)) (Proc.devRef .tc main_v11) = _
  after_results_simp <;> rfl

/-- The features gathered at the edges' targets. -/
theorem V_v18 (c : Dev nD) :
    (V m c main_v18 : S1200000x64.Idx → EReal)
      = Host.gather gather_S50000x64_S1200000x1_S1200000x64_1_0_n_n_0_1_164
          (truncf (F := Ideal) .bf16 (m ((c : Thread nD τ).loc main_arg0)) bitsLt_bf16_f32)
          (wrapCol (dstIdx (m ((c : Thread nD τ).loc main_arg1)))) := by
  show StableHlo.after hostOps0 (fun b => m (c, b)) (Proc.devRef .tc main_v18) = _
  after_results_simp <;> rfl

/-- The scalars gathered at the edges' targets, as an E × 1 array. -/
theorem V_v26 (c : Dev nD) :
    (V m c main_v26 : S1200000x1.Idx → EReal)
      = shapeCast _ (Host.gather gather_S50000_S1200000x1_S1200000_n_0_n_n_0_1_1 (m ((c : Thread nD τ).loc main_arg2))
          (wrapCol (dstIdx (m ((c : Thread nD τ).loc main_arg1))))) shapeCasts_S1200000_S1200000x1 := by
  show StableHlo.after hostOps0 (fun b => m (c, b)) (Proc.devRef .tc main_v26) = _
  after_results_simp <;> rfl

/-- The first 64 rows of the first weight matrix. -/
theorem V_v27 (c : Dev nD) :
    (V m c main_v27 : S64x32.Idx → EReal)
      = extractStridedSlice S64x32 ![0, 0] (m ((c : Thread nD τ).loc main_arg3)) slices_S128x32_S64x32_0_0 := by
  show StableHlo.after hostOps0 (fun b => m (c, b)) (Proc.devRef .tc main_v27) = _
  after_results_simp <;> rfl

/-- The last 64 rows of the first weight matrix. -/
theorem V_v28 (c : Dev nD) :
    (V m c main_v28 : S64x32.Idx → EReal)
      = extractStridedSlice S64x32 ![64, 0] (m ((c : Thread nD τ).loc main_arg3)) slices_S128x32_S64x32_64_0 := by
  show StableHlo.after hostOps0 (fun b => m (c, b)) (Proc.devRef .tc main_v28) = _
  after_results_simp <;> rfl

/-- The first bias as a one-row matrix. -/
theorem V_v29 (c : Dev nD) :
    (V m c main_v29 : S1x32.Idx → EReal) = shapeCast _ (m ((c : Thread nD τ).loc main_arg4)) shapeCasts_S32_S1x32 := by
  show StableHlo.after hostOps0 (fun b => m (c, b)) (Proc.devRef .tc main_v29) = _
  after_results_simp <;> rfl

/-- The second bias as a one-row matrix. -/
theorem V_v30 (c : Dev nD) :
    (V m c main_v30 : S1x32.Idx → EReal) = shapeCast _ (m ((c : Thread nD τ).loc main_arg6)) shapeCasts_S32_S1x32 := by
  show StableHlo.after hostOps0 (fun b => m (c, b)) (Proc.devRef .tc main_v30) = _
  after_results_simp <;> rfl

/-- The third bias as a one-entry matrix. -/
theorem V_v31 (c : Dev nD) :
    (V m c main_v31 : S1x1.Idx → EReal) = shapeCast _ (m ((c : Thread nD τ).loc main_arg8)) shapeCasts_S1_S1x1 := by
  show StableHlo.after hostOps0 (fun b => m (c, b)) (Proc.devRef .tc main_v31) = _
  after_results_simp <;> rfl

/-- The program's result: the E messages the region's output array holds, added into a zero vector of length 50000
    at the edges' sources. -/
theorem result (c : Dev nD) :
    Pipeline.afterTail₀ cfgs (dats m) 0 (V0 m) [hostOps1] c main_v36
      = Host.scatterAdd scatter_S50000_S1200000x1_S1200000_n_0_0_1
          (broadcastInDim S50000 ![] bcast_S_S50000 (constant (F := Ideal) S_ .f32 0x00000000#32))
          (broadcastInDim S1200000x1 ![0] bcast_S1200000_S1200000x1_0 (srcIdx (m ((c : Thread nD τ).loc main_arg1))))
          (shapeCast _ ((dats m 0 c).arrAt 10 cfg0.N) shapeCasts_S1200000x1_S1200000) := by
  unfold Pipeline.afterTail₀
  show StableHlo.after hostOps1 _ (Proc.devRef .tc main_v36) = _
  after_results
  rw [Pipeline.withArrays_of_ne _ c (V0 m c) _ main_v1 (by exact (by decide : ∀ w, Pipeline.arrRef spec0 w ≠ main_v1))]
  rw [show Pipeline.withArrays (cfgs 0).spec c (V0 m c) (fun w => (dats m 0 c).arrAt w (cfgs 0).N) (Proc.devRef .tc main_v32)
      = (dats m 0 c).arrAt 10 cfg0.N from Pipeline.withArrays_arr spec0 launch0.win.arr_inj c _ _ 10]
  rw [show V0 m c (Proc.devRef .tc main_v1) = srcIdx (m ((c : Thread nD τ).loc main_arg1)) from V_v1 m c]
  rfl

end Cert.KernelIdeal.Host

end
-- ==== Proof.KernelResult.lean ====
/-
  The kernel program's run, with its result named as one function of the argument arrays.

  The result is the sum, into a zero vector of length 50000 at the edges' sources, of the E messages; message `r` is
  `edge` of the features gathered at edge `r`'s source and target, the scalar gathered at its target, and the weights
  (`Arr.msgArr` of the region's operand arrays, each read as host operations of the arguments).
-/
import proofs.«117424_j51591147160149_2_alg».proof.Proof.KernelArray
import proofs.«117424_j51591147160149_2_alg».proof.Proof.KernelHost

noncomputable section

namespace Cert.KernelIdeal.Result

open Cert.KernelIdeal Cert.KernelIdeal.Gen Idealize.ShloMosaic Idealize.ShloMosaic.TcCoe Idealize.SL.Sem
open Cert.KernelIdeal.Host Cert.KernelIdeal.Arr

/-- The E × 1 array of messages, from the argument arrays. -/
def messages (a0 : S50000x64.Idx → EReal) (a1 : IVec S2x1200000 32) (a2 : S50000.Idx → EReal) (a3 : S128x32.Idx → EReal)
    (a4 : S32.Idx → EReal) (a5 : S32x32.Idx → EReal) (a6 : S32.Idx → EReal) (a7 : S32x1.Idx → EReal) (a8 : S1.Idx → EReal) :
    S1200000x1.Idx → EReal :=
  msgArr
    (Host.gather gather_S50000x64_S1200000x1_S1200000x64_1_0_n_n_0_1_164 (truncf (F := Ideal) .bf16 a0 bitsLt_bf16_f32) (wrapCol (srcIdx a1)))
    (Host.gather gather_S50000x64_S1200000x1_S1200000x64_1_0_n_n_0_1_164 (truncf (F := Ideal) .bf16 a0 bitsLt_bf16_f32) (wrapCol (dstIdx a1)))
    (shapeCast _ (Host.gather gather_S50000_S1200000x1_S1200000_n_0_n_n_0_1_1 a2 (wrapCol (dstIdx a1))) shapeCasts_S1200000_S1200000x1)
    (extractStridedSlice S64x32 ![0, 0] a3 slices_S128x32_S64x32_0_0)
    (extractStridedSlice S64x32 ![64, 0] a3 slices_S128x32_S64x32_64_0)
    (shapeCast _ a4 shapeCasts_S32_S1x32) a5 (shapeCast _ a6 shapeCasts_S32_S1x32) a7 (shapeCast _ a8 shapeCasts_S1_S1x1)

/-- The program's result, from the argument arrays. -/
def result (a0 : S50000x64.Idx → EReal) (a1 : IVec S2x1200000 32) (a2 : S50000.Idx → EReal) (a3 : S128x32.Idx → EReal)
    (a4 : S32.Idx → EReal) (a5 : S32x32.Idx → EReal) (a6 : S32.Idx → EReal) (a7 : S32x1.Idx → EReal) (a8 : S1.Idx → EReal) :
    S50000.Idx → EReal :=
  Host.scatterAdd scatter_S50000_S1200000x1_S1200000_n_0_0_1
    (broadcastInDim S50000 ![] bcast_S_S50000 (constant (F := Ideal) S_ .f32 0x00000000#32))
    (broadcastInDim S1200000x1 ![0] bcast_S1200000_S1200000x1_0 (srcIdx a1))
    (shapeCast _ (messages a0 a1 a2 a3 a4 a5 a6 a7 a8) shapeCasts_S1200000x1_S1200000)

variable (m : (ℓ : Loc nD τ sig) → Buf (Elt Ideal) ℓ) (ρ : Dev nD → PrngReg)

/-- The region's output array after the run is the message array of the arguments. -/
theorem final_args (c : Dev nD) :
    (dats m 0 c).arrAt 10 cfg0.N
      = messages (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  rw [Arr.final m c, V_v11 m c, V_v18 m c, V_v26 m c, V_v27 m c, V_v28 m c, V_v29 m c, V_v30 m c, V_v31 m c,
    V_main_arg5 m c, V_main_arg7 m c]
  rfl

/-- Every weakly fair execution of the kernel program terminates with its result at `result` of the arguments, the
    arguments unchanged. -/
theorem run : θ_run defs (onTc (τ := τ) (main (F := Ideal))) ⟨m, fun _ => 0, ρ⟩ fun r => ∀ c : Dev nD,
      r.2.mem ((c : Thread nD τ).loc main_v36)
        = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c =>
    ⟨(((h c).2 main_v36 (Pipeline.mem_restRefs_of main_v36 (by decide) (by decide))).trans (Host.result m c)).trans
        (by rw [final_args m c]; rfl),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 6).trans (((dats m 0 c).arrAt_in 6 rfl _).trans ((A_eq m c 6).trans (V_main_arg5 m c))),
      (((h c).2 main_arg6 (Pipeline.mem_restRefs_of main_arg6 (by decide) (by decide))).trans (W_main_arg6 m (dats m) c)),
      ((h c).1 8).trans (((dats m 0 c).arrAt_in 8 rfl _).trans ((A_eq m c 8).trans (V_main_arg7 m c))),
      (((h c).2 main_arg8 (Pipeline.mem_restRefs_of main_arg8 (by decide) (by decide))).trans (W_main_arg8 m (dats m) c))⟩)
    (run_main m ρ)

end Cert.KernelIdeal.Result

end
-- ==== Proof.RefValue.lean ====
/-
  The reference's per-edge product, entry by entry.

  The reference joins each edge's gathered source row and target row into one 128-vector, runs the perceptron on it
  with three whole matrix products, and multiplies the resulting weight by the gathered target scalar. Read at edge
  `r`, every operation on the way reads its operands at `r` (or at a weight's own index): a matrix product is the sum
  of products over the contracted coordinate, a broadcast bias its entry, the clamp a maximum with zero. So entry `r`
  of the product vector is `edgeJoined` of row `r` of the joined features; position `d` of a joined row is position
  `d` of the source row for `d < 64` and position `d − 64` of the target row otherwise.
-/
import proofs.«117424_j51591147160149_2_alg».proof.Proof.Gen.ReferenceIdeal.Read
import proofs.«117424_j51591147160149_2_alg».proof.Proof.EdgeMsg
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.EdgeMsg

/-! ## The index maps of the reference's operations, by coordinates -/

theorem i33 (r : Fin 1200000) : idx_main_v33 (ix1 r) = ix2 r (0 : Fin 1) :=
  funext fun a => Fin.ext (by
    match a with
    | ⟨0, _⟩ => show r.val / 1 = r.val; omega
    | ⟨1, _⟩ => rfl)
theorem i31 (r : Fin 1200000) (q : Fin 1) : idx_main_v31 (ix2 r q) = ix2 (0 : Fin 1) (0 : Fin 1) :=
  funext fun a => Fin.ext (by match a with | ⟨0, _⟩ => rfl | ⟨1, _⟩ => rfl)
theorem i30 (u q : Fin 1) : idx_main_v30 (ix2 u q) = ix1 (0 : Fin 1) :=
  funext fun a => Fin.ext (by match a with | ⟨0, _⟩ => rfl)
theorem l29 (r : Fin 1200000) (q : Fin 1) (k : Fin 32) : lidx_main_v29 (ix2 r q) k = ix2 r k :=
  funext fun a => Fin.ext (by match a with | ⟨0, _⟩ => rfl | ⟨1, _⟩ => rfl)
theorem r29 (r : Fin 1200000) (q : Fin 1) (k : Fin 32) : ridx_main_v29 (ix2 r q) k = ix2 k q :=
  funext fun a => Fin.ext (by match a with | ⟨0, _⟩ => rfl | ⟨1, _⟩ => rfl)
theorem i26 (r : Fin 1200000) (k : Fin 32) : idx_main_v26 (ix2 r k) = ix2 (0 : Fin 1) k :=
  funext fun a => Fin.ext (by match a with | ⟨0, _⟩ => rfl | ⟨1, _⟩ => rfl)
theorem i25 (u : Fin 1) (k : Fin 32) : idx_main_v25 (ix2 u k) = ix1 k :=
  funext fun a => Fin.ext (by match a with | ⟨0, _⟩ => rfl)
theorem l24 (r : Fin 1200000) (k j : Fin 32) : lidx_main_v24 (ix2 r k) j = ix2 r j :=
  funext fun a => Fin.ext (by match a with | ⟨0, _⟩ => rfl | ⟨1, _⟩ => rfl)
theorem r24 (r : Fin 1200000) (k j : Fin 32) : ridx_main_v24 (ix2 r k) j = ix2 j k :=
  funext fun a => Fin.ext (by match a with | ⟨0, _⟩ => rfl | ⟨1, _⟩ => rfl)
theorem i21 (r : Fin 1200000) (j : Fin 32) : idx_main_v21 (ix2 r j) = ix2 (0 : Fin 1) j :=
  funext fun a => Fin.ext (by match a with | ⟨0, _⟩ => rfl | ⟨1, _⟩ => rfl)
theorem i20 (u : Fin 1) (j : Fin 32) : idx_main_v20 (ix2 u j) = ix1 j :=
  funext fun a => Fin.ext (by match a with | ⟨0, _⟩ => rfl)
theorem l19 (r : Fin 1200000) (j : Fin 32) (d : Fin 128) : lidx_main_v19 (ix2 r j) d = ix2 r d :=
  funext fun a => Fin.ext (by match a with | ⟨0, _⟩ => rfl | ⟨1, _⟩ => rfl)
theorem r19 (r : Fin 1200000) (j : Fin 32) (d : Fin 128) : ridx_main_v19 (ix2 r j) d = ix2 d j :=
  funext fun a => Fin.ext (by match a with | ⟨0, _⟩ => rfl | ⟨1, _⟩ => rfl)

variable (x0 : (⟨S50000x64, .f32⟩ : BufTy).Contents (Elt Ideal)) (x1 : (⟨S2x1200000, .i32⟩ : BufTy).Contents (Elt Ideal))
  (x2 : (⟨S50000, .f32⟩ : BufTy).Contents (Elt Ideal)) (x3 : (⟨S128x32, .f32⟩ : BufTy).Contents (Elt Ideal))
  (x4 : (⟨S32, .f32⟩ : BufTy).Contents (Elt Ideal)) (x5 : (⟨S32x32, .f32⟩ : BufTy).Contents (Elt Ideal))
  (x6 : (⟨S32, .f32⟩ : BufTy).Contents (Elt Ideal)) (x7 : (⟨S32x1, .f32⟩ : BufTy).Contents (Elt Ideal))
  (x8 : (⟨S1, .f32⟩ : BufTy).Contents (Elt Ideal))

/-- Entry `r` of the reference's product vector is `edgeJoined` of row `r` of the joined features. -/
theorem product_apply (r : Fin 1200000) :
    val_main_v41 (F := Ideal) x0 x1 x2 x3 x4 x5 x6 x7 x8 (ix1 r)
      = edgeJoined (fun d => val_main_v18 (F := Ideal) x0 x1 (ix2 r d)) (val_main_v40 (F := Ideal) x1 x2 (ix1 r))
          (fun d j => x3 (ix2 d j)) (fun j => x4 (ix1 j)) (fun j k => x5 (ix2 j k)) (fun k => x6 (ix1 k))
          (fun k => x7 (ix2 k (0 : Fin 1))) (x8 (ix1 (0 : Fin 1))) := by
  unfold edgeJoined
  simp only [val_main_v41_apply, val_main_v33_apply, i33, val_main_v32_apply, val_main_v29_apply, l29, r29,
    val_main_v31_apply, i31, val_main_v30_apply, i30, val_main_v28_apply, val_main_v27_apply, val_main_v24_apply, l24, r24,
    val_main_v26_apply, i26, val_main_v25_apply, i25, val_main_call1_v0_apply, val_main_call1_cst_apply,
    val_main_v23_apply, val_main_v22_apply, val_main_v19_apply, l19, r19, val_main_v21_apply, i21, val_main_v20_apply, i20,
    val_main_call0_v0_apply, val_main_call0_cst_apply,
    Ideal.addf_def, Ideal.mulf_def, Ideal.maximumf_def, Ideal.ofBits_def]

/-- The first 64 positions of a joined row are the source row. -/
theorem joined_lo (r : Fin 1200000) (d : Fin 64) :
    val_main_v18 (F := Ideal) x0 x1 (ix2 r (lo d)) = val_main_v10 (F := Ideal) x0 x1 (ix2 r d) := by
  unfold val_main_v18
  refine concatenate_pair_apply_left (t := S1200000x128) (s₁ := S1200000x64) (s₂ := S1200000x64) (1 : Fin 2) _ _ _
    (ix2 r (lo d)) rfl (ix2 r d) fun b => ?_
  match b with
  | ⟨0, _⟩ => rfl
  | ⟨1, _⟩ => rfl

/-- The last 64 positions of a joined row are the target row. -/
theorem joined_hi (r : Fin 1200000) (d : Fin 64) :
    val_main_v18 (F := Ideal) x0 x1 (ix2 r (hi d)) = val_main_v17 (F := Ideal) x0 x1 (ix2 r d) := by
  unfold val_main_v18
  refine concatenate_pair_apply_right (t := S1200000x128) (s₁ := S1200000x64) (s₂ := S1200000x64) (1 : Fin 2) _ _ _
    (ix2 r (hi d)) rfl rfl (ix2 r d) (fun b hb => ?_) ?_
  · match b with
    | ⟨0, _⟩ => rfl
    | ⟨1, _⟩ => exact absurd rfl hb
  · show d.val + 64 = 64 + d.val
    omega

end Cert.ReferenceIdeal.RefValue

end
-- ==== Proof.Bridge.lean ====
/-
  The kernel's result and the reference's result are one function of the argument arrays.

  Both programs end by adding E per-edge products into a zero vector of length 50000 at the edges' sources, with
  the same indices; so it is enough that the E products agree. At edge `r` the kernel's product is `edge` of the
  source row and the target row (gathered after a change of float format, which does nothing to an extended real),
  against the two 64-row halves of the first weight matrix; the reference's is `edgeJoined` of the joined row
  against the whole matrix. Those agree because a sum over 128 positions splits into its first and last 64
  (`edgeJoined_eq_edge`); position `d` of the first half of the matrix is row `d`, of the second half row 64 + `d`; a
  bias viewed as a one-row matrix reads its own entry.
-/
import proofs.«117424_j51591147160149_2_alg».proof.Proof.KernelResult
import proofs.«117424_j51591147160149_2_alg».proof.Proof.RefValue
import Idealize.ShloMosaic.Lib.ValueLayout

noncomputable section

namespace Cert.Bridge

open Cert.KernelIdeal Cert.KernelIdeal.Gen Idealize.ShloMosaic Idealize.ShloMosaic.ValueIdx Cert.EdgeMsg
open Cert.KernelIdeal.Host Cert.KernelIdeal.Arr Cert.KernelIdeal.Result

variable (a0 : S50000x64.Idx → EReal) (a1 : IVec S2x1200000 32) (a2 : S50000.Idx → EReal) (a3 : S128x32.Idx → EReal)
  (a4 : S32.Idx → EReal) (a5 : S32x32.Idx → EReal) (a6 : S32.Idx → EReal) (a7 : S32x1.Idx → EReal) (a8 : S1.Idx → EReal)

/-- A vector of E entries viewed as an E × 1 array reads, at (r, 0), its entry `r`. -/
theorem column_apply (x : S1200000.Idx → EReal) (r : Fin 1200000) (q : Fin 1) :
    shapeCast S1200000x1 x shapeCasts_S1200000_S1200000x1 (ix2 r q) = x (ix1 r) :=
  shapeCast_apply x _ (ix2 r q) (ix1 r) (by
    rw [Shape.rowMajor_val_two, Shape.rowMajor_val_one]
    show r.val = r.val * 1 + q.val
    have := q.isLt
    omega)

/-- An E × 1 array viewed as a vector of E entries reads, at `r`, its entry (r, 0). -/
theorem flat_apply (x : S1200000x1.Idx → EReal) (r : Fin 1200000) :
    shapeCast S1200000 x shapeCasts_S1200000x1_S1200000 (ix1 r) = x (ix2 r (0 : Fin 1)) :=
  shapeCast_apply x _ (ix1 r) (ix2 r (0 : Fin 1)) (by
    rw [Shape.rowMajor_val_two, Shape.rowMajor_val_one]
    show r.val * 1 + 0 = r.val
    omega)

/-- Row `d` of the first half of the first weight matrix is its row `d`. -/
theorem firstHalf_apply (d : Fin 64) (j : Fin 32) :
    extractStridedSlice S64x32 ![0, 0] a3 slices_S128x32_S64x32_0_0 (ix2 d j) = a3 (ix2 (lo d) j) :=
  slice2_axis0_apply 0 a3 slices_S128x32_S64x32_0_0 d j (lo d) (Nat.zero_add _).symm

/-- Row `d` of the second half of the first weight matrix is its row 64 + `d`. -/
theorem secondHalf_apply (d : Fin 64) (j : Fin 32) :
    extractStridedSlice S64x32 ![64, 0] a3 slices_S128x32_S64x32_64_0 (ix2 d j) = a3 (ix2 (hi d) j) :=
  slice2_axis0_apply 64 a3 slices_S128x32_S64x32_64_0 d j (hi d) rfl

/-- Edge `r`'s message in the kernel is edge `r`'s product in the reference. -/
theorem message_eq (r : Fin 1200000) :
    messages a0 a1 a2 a3 a4 a5 a6 a7 a8 (ix2 r (0 : Fin 1))
      = Cert.ReferenceIdeal.Read.val_main_v41 (F := Ideal) a0 a1 a2 a3 a4 a5 a6 a7 a8 (ix1 r) := by
  rw [Cert.ReferenceIdeal.RefValue.product_apply, edgeJoined_eq_edge]
  simp only [Cert.ReferenceIdeal.RefValue.joined_lo, Cert.ReferenceIdeal.RefValue.joined_hi]
  show msgRow _ _ _ _ _ _ _ _ _ _ r = _
  unfold msgRow
  simp only [column_apply, firstHalf_apply, secondHalf_apply, shapeCast_a_1a_apply]
  rfl

/-- The two programs' scatter dimension numbers are the same record. -/
theorem dims_eq : scatter_S50000_S1200000x1_S1200000_n_0_0_1 = Cert.ReferenceIdeal.scatter_S50000_S1200000x1_S1200000_n_0_0_1 := rfl

/-- Both programs add into the zero vector of length 50000. -/
theorem zeros_eq :
    broadcastInDim S50000 ![] bcast_S_S50000 (constant (F := Ideal) S_ .f32 0x00000000#32)
      = Cert.ReferenceIdeal.Read.val_main_v42 (F := Ideal) := rfl

/-- Both programs add at the edges' sources, as given. -/
theorem sources_eq :
    broadcastInDim S1200000x1 ![0] bcast_S1200000_S1200000x1_0 (srcIdx a1) = Cert.ReferenceIdeal.Read.val_main_v43 (F := Ideal) a1 := rfl

/-- THE TWO RESULTS AGREE. -/
theorem result_eq :
    Result.result a0 a1 a2 a3 a4 a5 a6 a7 a8 = Cert.ReferenceIdeal.Read.val_main_v44 (F := Ideal) a0 a1 a2 a3 a4 a5 a6 a7 a8 := by
  unfold Result.result Cert.ReferenceIdeal.Read.val_main_v44
  rw [dims_eq, zeros_eq, sources_eq]
  refine congrArg _ (funext fun i => ?_)
  obtain ⟨r, rfl⟩ : ∃ r : Fin 1200000, i = ix1 r := ⟨i 0, eq_ix1 i⟩
  rw [flat_apply, message_eq]

end Cert.Bridge

end
-- ==== Proof.lean ====
/-
  An edge perceptron on a graph: per edge, the 64 features of the source node and of the target node go through a
  three-layer perceptron (128 → 32 → 32 → 1, clamped at zero from below after the first two layers) to one weight,
  which multiplies the target node's scalar; the products are then summed per source node.

  The kernel program gathers the source rows and the target rows separately, and its pipelined region computes, for
  6000 edges at a time, the first layer as the sum of two products against the two 64-row halves of the first weight
  matrix. The reference joins the two gathered rows into a 128-vector and multiplies by the whole matrix. Over the
  extended reals the two first layers agree because a sum over 128 positions is the sum over the first 64 plus the
  sum over the last 64 — a fact about sums in a commutative monoid, needing no finiteness —, every other operation is
  the same on both sides, and both programs add the per-edge products into a zero vector at the same indices.

  The frames of the two kernel programs are the generated ones; the reference's frame is its generated run with the
  result dropped. The kernel rewrote nothing on the way to its idealization, so that claim is trivial. The value
  claim: the kernel program's run ends with its result at `Result.result` of the arguments (the region's output
  array read block by block, then the host operations around it), the reference's at its generated stage term, and
  `Bridge.result_eq` says these are one function.
-/
import proofs.«117424_j51591147160149_2_alg».proof.Defs
import proofs.«117424_j51591147160149_2_alg».proof.Proof.Gen.Kernel
import proofs.«117424_j51591147160149_2_alg».proof.Proof.Gen.Kernel.Skeleton
import proofs.«117424_j51591147160149_2_alg».proof.Proof.Gen.Kernel.Launch
import proofs.«117424_j51591147160149_2_alg».proof.Proof.Gen.Kernel.Points
import proofs.«117424_j51591147160149_2_alg».proof.Proof.Gen.Kernel.Frame
import proofs.«117424_j51591147160149_2_alg».proof.Proof.Gen.KernelIdeal
import proofs.«117424_j51591147160149_2_alg».proof.Proof.Gen.KernelIdeal.Skeleton
import proofs.«117424_j51591147160149_2_alg».proof.Proof.Gen.KernelIdeal.Launch
import proofs.«117424_j51591147160149_2_alg».proof.Proof.Gen.KernelIdeal.Points
import proofs.«117424_j51591147160149_2_alg».proof.Proof.Gen.KernelIdeal.Frame
import proofs.«117424_j51591147160149_2_alg».proof.Proof.Gen.ReferenceIdeal
import proofs.«117424_j51591147160149_2_alg».proof.Proof.Gen.ReferenceIdeal.Run
import proofs.«117424_j51591147160149_2_alg».proof.Proof.Gen.ReferenceIdeal.Read
import proofs.«117424_j51591147160149_2_alg».proof.Proof.Gen.Pre_finite_inputs
import proofs.«117424_j51591147160149_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the per-source sums of the per-edge products. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  exact (Cert.Bridge.result_eq _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
